-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S50000x128 .f32) (main_arg1 : IVec S2x640000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S50000 : Shape := ⟨1, ![50000]⟩
abbrev S640000x1 : Shape := ⟨2, ![640000, 1]⟩
abbrev S640000x128 : Shape := ⟨2, ![640000, 128]⟩
abbrev S50000x1 : Shape := ⟨2, ![50000, 1]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 64
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S50000, .f32⟩
  | .hbm, ⟨16, _⟩ => ⟨S640000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x128, .f32⟩
  | .hbm, ⟨33, _⟩ => ⟨S_, .f32⟩
  | .hbm, ⟨34, _⟩ => ⟨S50000x128, .f32⟩
  | .hbm, ⟨35, _⟩ => ⟨S640000x1, .i32⟩
  | .hbm, ⟨36, _⟩ => ⟨S50000x128, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S128x128, .f32⟩
  | .hbm, ⟨41, _⟩ => ⟨S128x128, .f32⟩
  | .hbm, ⟨42, _⟩ => ⟨S1x128, .f32⟩
  | .hbm, ⟨43, _⟩ => ⟨S50000x128, .f32⟩
  | .hbm, ⟨44, _⟩ => ⟨S_, .i32⟩
  | .hbm, ⟨45, _⟩ => ⟨S640000, .i32⟩
  | .hbm, ⟨46, _⟩ => ⟨S640000, .i1⟩
  | .hbm, ⟨47, _⟩ => ⟨S_, .i32⟩
  | .hbm, ⟨48, _⟩ => ⟨S640000, .i32⟩
  | .hbm, ⟨49, _⟩ => ⟨S640000, .i32⟩
  | .hbm, ⟨50, _⟩ => ⟨S640000, .i32⟩
  | .hbm, ⟨51, _⟩ => ⟨S640000x1, .i32⟩
  | .hbm, ⟨52, _⟩ => ⟨S640000x128, .f32⟩
  | .hbm, ⟨53, _⟩ => ⟨S_, .f32⟩
  | .hbm, ⟨54, _⟩ => ⟨S50000x128, .f32⟩
  | .hbm, ⟨55, _⟩ => ⟨S640000x1, .i32⟩
  | .hbm, ⟨56, _⟩ => ⟨S50000x128, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S128x128, .f32⟩
  | .hbm, ⟨61, _⟩ => ⟨S128x128, .f32⟩
  | .hbm, ⟨62, _⟩ => ⟨S1x128, .f32⟩
  | .hbm, ⟨63, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  scatter_S50000_S640000x1_S640000_n_0_0_1_wf : ScatterDims.WF S50000 S640000x1 S640000 [] [0] [0] 1
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 101
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S50000x128, .f32⟩
  | .hbm, ⟨23, _⟩ => ⟨S640000x1, .i32⟩
  | .hbm, ⟨24, _⟩ => ⟨S50000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S50000, .f32⟩
  | .hbm, ⟨29, _⟩ => ⟨S640000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S128x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000, .f32⟩
  | .hbm, ⟨48, _⟩ => ⟨S50000x1, .f32⟩
  | .hbm, ⟨49, _⟩ => ⟨S50000x1, .f32⟩
  | .hbm, ⟨50, _⟩ => ⟨S_, .f32⟩
  | .hbm, ⟨51, _⟩ => ⟨S50000x1, .f32⟩
  | .hbm, ⟨52, _⟩ => ⟨S50000x1, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S50000x128, .f32⟩
  | .hbm, ⟨57, _⟩ => ⟨S50000x128, .f32⟩
  | .hbm, ⟨58, _⟩ => ⟨S_, .i32⟩
  | .hbm, ⟨59, _⟩ => ⟨S640000, .i32⟩
  | .hbm, ⟨60, _⟩ => ⟨S640000, .i1⟩
  | .hbm, ⟨61, _⟩ => ⟨S_, .i32⟩
  | .hbm, ⟨62, _⟩ => ⟨S640000, .i32⟩
  | .hbm, ⟨63, _⟩ => ⟨S640000, .i32⟩
  | .hbm, ⟨64, _⟩ => ⟨S640000, .i32⟩
  | .hbm, ⟨65, _⟩ => ⟨S640000x1, .i32⟩
  | .hbm, ⟨66, _⟩ => ⟨S640000x128, .f32⟩
  | .hbm, ⟨67, _⟩ => ⟨S_, .f32⟩
  | .hbm, ⟨68, _⟩ => ⟨S50000x128, .f32⟩
  | .hbm, ⟨69, _⟩ => ⟨S640000x1, .i32⟩
  | .hbm, ⟨70, _⟩ => ⟨S50000x128, .f32⟩
  | .hbm, ⟨71, _⟩ => ⟨S_, .f32⟩
  | .hbm, ⟨72, _⟩ => ⟨S640000, .f32⟩
  | .hbm, ⟨73, _⟩ => ⟨S_, .f32⟩
  | .hbm, ⟨74, _⟩ => ⟨S50000, .f32⟩
  | .hbm, ⟨75, _⟩ => ⟨S640000x1, .i32⟩
  | .hbm, ⟨76, _⟩ => ⟨S50000, .f32⟩
  | .hbm, ⟨77, _⟩ => ⟨S_, .f32⟩
  | .hbm, ⟨78, _⟩ => ⟨S50000, .f32⟩
  | .hbm, ⟨79, _⟩ => ⟨S50000, .f32⟩
  | .hbm, ⟨80, _⟩ => ⟨S50000x1, .f32⟩
  | .hbm, ⟨81, _⟩ => ⟨S50000x128, .f32⟩
  | .hbm, ⟨82, _⟩ => ⟨S50000x128, .f32⟩
  | .hbm, ⟨83, _⟩ => ⟨S128x128, .f32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S50000x128, .f32⟩
  | .hbm, ⟨88, _⟩ => ⟨S128x128, .f32⟩
  | .hbm, ⟨89, _⟩ => ⟨S50000x128, .f32⟩
  | .hbm, ⟨90, _⟩ => ⟨S50000x128, .f32⟩
  | .hbm, ⟨91, _⟩ => ⟨S50000x128, .f32⟩
  | .hbm, ⟨92, _⟩ => ⟨S_, .f32⟩
  | .hbm, ⟨93, _⟩ => ⟨S50000, .f32⟩
  | .hbm, ⟨94, _⟩ => ⟨S50000x1, .f32⟩
  | .hbm, ⟨95, _⟩ => ⟨S50000x1, .f32⟩
  | .hbm, ⟨96, _⟩ => ⟨S_, .f32⟩
  | .hbm, ⟨97, _⟩ => ⟨S50000x1, .f32⟩
  | .hbm, ⟨98, _⟩ => ⟨S50000x1, .f32⟩
  | .hbm, ⟨99, _⟩ => ⟨S50000x128, .f32⟩
  | .hbm, ⟨100, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call0_cst : Ref sig .tc := ⟨.hbm, 55, rfl⟩
abbrev main_call0_v0 : Ref sig .tc := ⟨.hbm, 56, rfl⟩
abbrev main_v39 : Ref sig .tc := ⟨.hbm, 57, rfl⟩
abbrev main_c_6 : Ref sig .tc := ⟨.hbm, 58, rfl⟩
abbrev main_v40 : Ref sig .tc := ⟨.hbm, 59, rfl⟩
abbrev main_v41 : Ref sig .tc := ⟨.hbm, 60, rfl⟩
abbrev main_c_7 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_12 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_13 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S50000x128_S128x128_S50000x128_1_0_0_1_n_n_wf : DotDims.WF S50000x128 S128x128 S50000x128 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel program's run with its result array named.

  The program is a chain of four segments: the host operations before the first kernel launch, the first launch, the
  host operations between the launches, the second launch.  Every weakly fair execution ends, without a fault, in a
  state whose unscoped buffers hold the contents obtained by folding the segments over the launch memory; in
  particular the result buffer holds what the second launch's write-backs leave in it, and the eight argument arrays
  hold what they were launched with.
-/
import proofs.«151983_j20100446946058_1_alg».proof.Proof.Gen.KernelIdeal.Frame

set_option maxRecDepth 16384

noncomputable section

namespace Cert.Sage.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    segment boundary's contents of it, and each argument array as launched. -/
theorem run_result : θ_run defs (onTc (τ := τ) (main (F := F))) ⟨m, fun _ => 0, ρ⟩ (fun r => ∀ c : Dev nD,
      r.2.mem ((c.tc : Thread nD τ).loc main_v45) = W4 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v45 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.Sage.KRun

end
-- ==== Proof.Spec.lean ====
/-
  One graph-convolution layer with mean aggregation and row normalization, as arithmetic on the extended reals.

  A layer maps node features to  normalize(mean · Wlᵀ + b + x · Wrᵀ),  where row r of `mean` is the average of the
  feature rows of r's in-neighbours and `normalize` divides a row by the larger of its Euclidean norm and a small
  positive clamp; the first of the two layers is followed by max(·, 0).  Entry (r, c) of a layer's output depends on
  row r of `mean` and of `x` only, so the layer is stated ROW BY ROW: `outRow` takes the two rows and the (already
  transposed) weight matrices and bias.  The same row function describes a block of rows and the whole array.

  Two laws join the two programs.  The sum  A + B + C  of the three summands of the pre-activation may be grouped as
  (A + C) + B or as (A + B) + C: addition on the extended reals is commutative and associative, the infinities
  included (`preRowAlt_eq`).  And the average may be taken by multiplying with the reciprocal  1 / max(count, 1)  or by
  dividing by  max(count, 1):  the divisor is at least 1, so it is not zero, and division by a non-zero extended real IS
  multiplication by its inverse (`mul_recip_eq_div`).  Neither law needs the entries to be finite.
-/
import Idealize.ShloMosaic.PureOps.Ideal
import Idealize.ShloMosaic.Lib.ValueIdx

noncomputable section

namespace Cert.Sage

open Idealize.ShloMosaic Idealize.ShloMosaic.ValueIdx
open scoped BigOperators

/-- A 128×128 weight matrix on the extended reals. -/
abbrev W128 := (⟨2, ![128, 128]⟩ : Shape).Idx → EReal

/-- The clamp under a row norm: the binary32 number nearest 1e-12 (the same word in both programs, never evaluated). -/
def eps : EReal := Ideal.ofBits .f32 0x2B8CBCCC#32
/-- The floor of the rectifier: the word of +0.0 (the same word in both programs, never evaluated). -/
def zero : EReal := Ideal.ofBits .f32 0x00000000#32
/-- The word of 1.0. -/
def one : EReal := Ideal.ofBits .f32 0x3F800000#32

/-- The word of 1.0 denotes 1. -/
theorem one_eq : one = 1 := by
  unfold one; simp [Ideal.ofBits, Ideal.ieee, -EReal.coe_mul]; norm_num

/-- The pre-activation of one output row at column c:  (mrow · wl[:, c] + b c) + xrow · wr[:, c]. -/
def preRow (mrow xrow : Fin 128 → EReal) (wl wr : W128) (b : Fin 128 → EReal) (c : Fin 128) : EReal :=
  ((∑ k : Fin 128, mrow k * wl (ix2 k c)) + b c) + ∑ k : Fin 128, xrow k * wr (ix2 k c)

/-- The same three summands grouped the other way:  (mrow · wl[:, c] + xrow · wr[:, c]) + b c. -/
def preRowAlt (mrow xrow : Fin 128 → EReal) (wl wr : W128) (b : Fin 128 → EReal) (c : Fin 128) : EReal :=
  ((∑ k : Fin 128, mrow k * wl (ix2 k c)) + ∑ k : Fin 128, xrow k * wr (ix2 k c)) + b c

/-- The two groupings agree: addition of extended reals is commutative and associative. -/
theorem preRowAlt_eq (mrow xrow : Fin 128 → EReal) (wl wr : W128) (b : Fin 128 → EReal) :
    preRowAlt mrow xrow wl wr b = preRow mrow xrow wl wr b := by
  funext c; unfold preRowAlt preRow; exact add_right_comm _ _ _

/-- The divisor of a row s: the larger of its Euclidean norm and the clamp. -/
def rowNorm (s : Fin 128 → EReal) : EReal := max (Ideal.sqrt (∑ c : Fin 128, s c * s c)) eps

/-- A pre-activation row s normalized, and rectified when `relu`, at column c. -/
def finish (relu : Bool) (s : Fin 128 → EReal) (c : Fin 128) : EReal :=
  if relu then max (Ideal.div (s c) (rowNorm s)) zero else Ideal.div (s c) (rowNorm s)

/-- One output row of a layer at column c. -/
def outRow (relu : Bool) (mrow xrow : Fin 128 → EReal) (wl wr : W128) (b : Fin 128 → EReal) (c : Fin 128) : EReal :=
  finish relu (preRow mrow xrow wl wr b) c

/-- A layer on an array of n rows, index by index: row (i 0), column (i 1). The bias comes as a 1×128 row. -/
def layerOut (relu : Bool) {n : Nat} (mean x : (⟨2, ![n, 128]⟩ : Shape).Idx → EReal) (wl wr : W128)
    (b2d : (⟨2, ![1, 128]⟩ : Shape).Idx → EReal) : (⟨2, ![n, 128]⟩ : Shape).Idx → EReal :=
  fun i => outRow relu (fun k => mean (ix2 (i 0) k)) (fun k => x (ix2 (i 0) k)) wl wr (fun c => b2d (ix2 (0 : Fin 1) c)) (i 1)

theorem layerOut_ix2 (relu : Bool) {n : Nat} (mean x : (⟨2, ![n, 128]⟩ : Shape).Idx → EReal) (wl wr : W128)
    (b2d : (⟨2, ![1, 128]⟩ : Shape).Idx → EReal) (r : Fin n) (c : Fin 128) :
    layerOut relu mean x wl wr b2d (ix2 r c)
      = outRow relu (fun k => mean (ix2 r k)) (fun k => x (ix2 r k)) wl wr (fun c => b2d (ix2 (0 : Fin 1) c)) c := rfl

/-- Multiplying by the reciprocal of max(c, 1) is dividing by max(c, 1), for every extended real a and c. -/
theorem mul_recip_eq_div (a c : EReal) : a * Ideal.div one (max c one) = Ideal.div a (max c one) := by
  have h1 : (1 : EReal) ≤ max c one := by rw [one_eq]; exact le_max_right _ _
  have hne : max c one ≠ 0 := fun h => by rw [h] at h1; exact absurd h1 (by norm_num)
  unfold Ideal.div
  rw [if_neg hne, if_neg hne, one_eq, one_mul]

end Cert.Sage

end
-- ==== Proof.Shared.lean ====
/-
  The two-layer network as ONE function of the argument arrays.

  Both programs aggregate neighbour features with the same two host operations — a row gather at the edges' source
  nodes (a negative index counted from the end) followed by a scatter-add into the edges' destination rows — and count
  the in-edges of a node with a scatter-add of ones.  These are carried here as whole-array functions and never opened:
  `aggregate`, `recip`.  The mean of the neighbour rows is the aggregate times the reciprocal 1 / max(count, 1) spread
  along the columns (`meanMul`), and a layer is the row function of the specification applied to that mean, the layer's
  input, the two transposed weight matrices and the bias laid as a 1×128 row (`layer`).  The network is the rectified
  first layer followed by the second (`net`).
-/
import proofs.«151983_j20100446946058_1_alg».proof.KernelIdeal
import proofs.«151983_j20100446946058_1_alg».proof.Proof.Gen.KernelIdeal
import proofs.«151983_j20100446946058_1_alg».proof.Proof.Spec
import Idealize.ShloMosaic.PureOps.Ideal

noncomputable section

namespace Cert.Sage

open Idealize.ShloMosaic Idealize.ShloMosaic.ValueIdx Cert.KernelIdeal Cert.KernelIdeal.Facts₀

/-- A float array of a given shape on the extended reals. -/
abbrev FArr (s : Shape) := FVec Ideal s .f32
/-- An array of 32-bit integer words of a given shape. -/
abbrev IArr (s : Shape) := IVec s 32

/-- The edges' source nodes: row 0 of the 2×E edge list. -/
def src (e : IArr S2x640000) : IArr S640000 :=
  shapeCast S640000 (extractStridedSlice S1x640000 ![0, 0] e slices_S2x640000_S1x640000_0_0) shapeCasts_S1x640000_S640000
/-- The edges' destination nodes: row 1 of the 2×E edge list. -/
def dst (e : IArr S2x640000) : IArr S640000 :=
  shapeCast S640000 (extractStridedSlice S1x640000 ![1, 0] e slices_S2x640000_S1x640000_1_0) shapeCasts_S1x640000_S640000

/-- The number of in-edges of each node, clamped below by 1: a scatter-add of ones at the destinations, then max with 1. -/
def degree (d : IArr S640000) : FArr S50000 :=
  maximumf (F := Ideal)
    (Host.scatterAdd (F := Ideal) scatter_S50000_S640000x1_S640000_n_0_0_1
      (broadcastInDim S50000 ![] bcast_S_S50000 (constant (F := Ideal) S_ .f32 0x00000000#32))
      (broadcastInDim S640000x1 ![0] bcast_S640000_S640000x1_0 d)
      (broadcastInDim S640000 ![] bcast_S_S640000 (constant (F := Ideal) S_ .f32 0x3F800000#32)))
    (broadcastInDim S50000 ![] bcast_S_S50000 (constant (F := Ideal) S_ .f32 0x3F800000#32))

/-- The reciprocal 1 / max(count, 1) per node. -/
def recip (d : IArr S640000) : FArr S50000 :=
  Host.divf (F := Ideal) (broadcastInDim S50000 ![] bcast_S_S50000 (constant (F := Ideal) S_ .f32 0x3F800000#32)) (degree d)

/-- The sum over a node's in-edges of the source nodes' feature rows: gather the rows at the sources (a negative source
    index counted from the end), scatter-add them at the destinations into zeros. -/
def aggregate (h : FArr S50000x128) (s d : IArr S640000) : FArr S50000x128 :=
  Host.scatterAdd (F := Ideal) scatter_S50000x128_S640000x1_S640000x128_1_0_0_1
    (broadcastInDim S50000x128 ![] bcast_S_S50000x128 (constant (F := Ideal) S_ .f32 0x00000000#32))
    (broadcastInDim S640000x1 ![0] bcast_S640000_S640000x1_0 d)
    (Host.gather gather_S50000x128_S640000x1_S640000x128_1_0_n_n_0_1_1128 h
      (broadcastInDim S640000x1 ![0] bcast_S640000_S640000x1_0
        (select
          (cmpi .slt s (broadcastInDim S640000 ![] bcast_S_S640000 (constantI S_ 32 0#32)))
          (addi s (broadcastInDim S640000 ![] bcast_S_S640000 (constantI S_ 32 50000#32)))
          s)))

/-- A per-node factor spread along the 128 columns. -/
def spread (r : FArr S50000) : FArr S50000x128 :=
  broadcastInDim S50000x128 ![0, 1] bcast_S50000x1_S50000x128_0_1 (broadcastInDim S50000x1 ![0] bcast_S50000_S50000x1_0 r)

/-- The mean of the in-neighbours' rows, taken by multiplying the aggregate with a per-node factor. -/
def meanMul (h : FArr S50000x128) (s d : IArr S640000) (r : FArr S50000) : FArr S50000x128 :=
  mulf (F := Ideal) (aggregate h s d) (spread r)

/-- The same mean taken by dividing the aggregate by the clamped count. -/
def meanDiv (h : FArr S50000x128) (s d : IArr S640000) : FArr S50000x128 :=
  Host.divf (F := Ideal) (aggregate h s d) (spread (degree d))

/-- A weight matrix transposed. -/
def tr (w : FArr S128x128) : FArr S128x128 := transpose S128x128 [1, 0] w transposes_S128x128_S128x128_1_0
/-- A bias vector laid as a 1×128 row. -/
def biasRow (b : FArr S128) : FArr S1x128 := shapeCast S1x128 b shapeCasts_S128_S1x128

/-- One layer on whole arrays: the specification's row function of the mean, the input, the transposed weights and the bias. -/
def layer (relu : Bool) (h : FArr S50000x128) (e : IArr S2x640000) (wl : FArr S128x128) (b : FArr S128) (wr : FArr S128x128) :
    FArr S50000x128 :=
  layerOut relu (meanMul h (src e) (dst e) (recip (dst e))) h (tr wl) (tr wr) (biasRow b)

/-- The network: the rectified first layer, then the second. -/
def net (x : FArr S50000x128) (e : IArr S2x640000) (wl1 : FArr S128x128) (b1 : FArr S128) (wr1 : FArr S128x128)
    (wl2 : FArr S128x128) (b2 : FArr S128) (wr2 : FArr S128x128) : FArr S50000x128 :=
  layer false (layer true x e wl1 b1 wr1) e wl2 b2 wr2

end Cert.Sage

end
-- ==== Proof.LibColumnLayout.lean ====
/-
  Column layouts read at an index, and a row sum at the ideal instance.

  A sum over the last axis of an `[a, b]` array taken with the axis kept leaves a column `[a, 1]`. Three re-layings of such a
  column occur around it: the cast of a vector `[a]` to the column `[a, 1]`, the cast of a column `[a, 1]` to the row `[1, a]`
  (the same `a` numbers in the same row-major order), and the broadcast of a column `[a, 1]` along a new second extent to
  `[a, b]`. Each, read at an index, is the operand at the evident index: entry `(i, 0)` of the column is entry `i` of the vector,
  entry `(0, i)` of the row is entry `(i, 0)` of the column, and entry `(p, c)` of the broadcast is entry `(p, 0)` of the column.
  The host's `broadcast_in_dim` of a vector to a column along axis 0 reads the same way.

  On the extended reals a sum along the second axis of an `[a, b]` array, at row `p`, is the sum over `d` of the entries
  `(p, d)` — for a vector reduction and for the host's reduction from an initial value alike.
-/
import Idealize.ShloMosaic.Lib.ValueLayout
import Idealize.ShloMosaic.PureOps.Ideal.Laws

noncomputable section

namespace Cert.LibColumnLayout

open Idealize.ShloMosaic Idealize.ShloMosaic.ValueIdx

variable {α : Type}

/-! ## A vector as a column, a column as a row, a column broadcast along rows -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to the row `[1, a]` reads, at `(u, i)`, the column at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of an `[a]` array to the column `[a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-! ## A sum along the second axis, on the extended reals -/

/-- A vector reduction by addition along the second axis of an `[a, b]` array, at row `p`: the sum of that row. -/
theorem multiReduction_add_rows_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) : multiReduction .add [1] ⟨1, ![a]⟩ src acc h hφ hacc (ix1 p) = ∑ d : Fin b, src (ix2 p d) := by
  refine (Ideal.multiReduction_add_single src acc h hφ hacc (ix1 p)).trans ?_
  refine Finset.sum_congr rfl fun d _ => congrArg src ?_
  funext ax; apply Fin.ext
  match ax with
  | ⟨0, _⟩ => rfl
  | ⟨1, _⟩ => rfl

/-- The host's reduction by addition along the second axis from an initial value, at row `p`: the initial value plus the
    sum of that row. -/
theorem hostReduceAdd_rows_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ d : Fin b, x (ix2 p d) := by
  refine (Ideal.hostReduceAdd_single h' h x init (ix1 p)).trans ?_
  refine congrArg (init + ·) (Finset.sum_congr rfl fun d _ => congrArg x ?_)
  funext ax; apply Fin.ext
  match ax with
  | ⟨0, _⟩ => rfl
  | ⟨1, _⟩ => rfl

end Cert.LibColumnLayout

end
-- ==== Proof.LibMatmulSum.lean ====
/-
  A matrix product with ONE contracted axis, read at an output index as a sum over that axis's positions.

  At the ideal instance a `tpu.matmul` into the zero accumulator, and the host's `dot_general`, are at every
  output index the sum over the contraction index of the products of the two operands' entries. When exactly one axis is
  contracted, the contraction index is one number `k < K`; if at the output index `j` the left operand is read at
  `L k` and the right one at `R k`, the entry is `∑ k : Fin K, lhs (L k) * rhs (R k)`. The two index facts are
  the only thing a caller supplies; they hold for any layout of the contracted and free axes.
-/
import Idealize.ShloMosaic.PureOps.Ideal.Laws
import Idealize.ShloMosaic.Lib.ValueIdx

noncomputable section

namespace Idealize.ShloMosaic.MatmulSum

open Idealize.ShloMosaic Idealize.ShloMosaic.ValueIdx

variable {sl sr so : Shape} {φ₁ φ₂ : FTy}

/-- A `tpu.matmul` into the zero splat with one contracted axis of extent `K`: at `j` it is the sum over `k < K` of the
    left operand at `L k` times the right operand at `R k`, where `L k` and `R k` are the operand indices the
    dimension numbers assign to output index `j` and contraction position `k`. -/
theorem matmul_zero_apply_single (D : DotDims sl sr so) (prec : Option ContractPrecision) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.matmul D prec lhs rhs (constant so .f32 0x00000000#32) j = ∑ k : Fin K, lhs (L k) * rhs (R k) := by
  rw [Ideal.matmul_constant_zero_apply, ← Equiv.sum_comp (contrEquiv1 D K hr hs).symm]
  exact Finset.sum_congr rfl fun k _ => by rw [hL k, hR k]

/-- The host's `dot_general` with one contracted axis of extent `K`, read the same way. -/
theorem dotGeneral_apply_single (D : DotDims sl sr so) (prec : Option ContractPrecision) (sched : HostSchedule) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.dotGeneral D prec sched lhs rhs j = ∑ k : Fin K, lhs (L k) * rhs (R k) := by
  rw [Ideal.dotGeneral_apply, ← Equiv.sum_comp (contrEquiv1 D K hr hs).symm]
  exact Finset.sum_congr rfl fun k _ => by rw [hL k, hR k]

end Idealize.ShloMosaic.MatmulSum

end
-- ==== Proof.LibPlainMatmul.lean ====
/-
  The plain matrix product, M×K by K×N, read at an output entry.

  For the dimension numbers that contract the left operand's second axis with the right operand's first one and have no
  batch axes, the left operand is read at (p, l) and the right one at (l, q) when the output index is (p, q) and the
  contraction position is l. Hence, at the ideal instance, a matrix product into the zero accumulator and the host's
  product are at (p, q) the sum over l < K of lhs (p, l) * rhs (l, q), for every M, K, N and operand formats.
-/
import Idealize.ShloMosaic.PureOps.Ideal.Laws
import Idealize.ShloMosaic.Lib.ValueIdx
import proofs.«151983_j20100446946058_1_alg».proof.Proof.LibMatmulSum

noncomputable section

namespace Idealize.ShloMosaic.PlainMatmul

open Idealize.ShloMosaic Idealize.ShloMosaic.ValueIdx

variable (M K N : Nat)

/-- On its first axis (a free axis) the left operand's index is the output index's first coordinate. -/
theorem plain_lhs_0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- On its second axis (the contracted one) the left operand's index is the contraction position. -/
theorem plain_lhs_1 (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- On its first axis (the contracted one) the right operand's index is the contraction position. -/
theorem plain_rhs_0 (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- On its second axis (a free axis) the right operand's index is the output index's second coordinate. -/
theorem plain_rhs_1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index (p, q) and contraction position l is (p, l). -/
theorem plain_lhsIdx (p : Fin M) (q : Fin N) (l : Fin K) :
    (DotDims.plain M K N).lhsIdx (ix2 p q) ((contrEquiv1 (DotDims.plain M K N) K rfl rfl).symm l) = ix2 p l :=
  funext fun a => Fin.ext (by
    match a with
    | ⟨0, _⟩ => exact plain_lhs_0 M K N _ _
    | ⟨1, _⟩ => exact (plain_lhs_1 M K N _ _).trans (contrEquiv1_symm_val (DotDims.plain M K N) K rfl rfl l))

/-- The right operand's index at output index (p, q) and contraction position l is (l, q). -/
theorem plain_rhsIdx (p : Fin M) (q : Fin N) (l : Fin K) :
    (DotDims.plain M K N).rhsIdx (ix2 p q) ((contrEquiv1 (DotDims.plain M K N) K rfl rfl).symm l) = ix2 l q :=
  funext fun a => Fin.ext (by
    match a with
    | ⟨0, _⟩ => exact (plain_rhs_0 M K N _ _).trans (contrEquiv1_symm_val (DotDims.plain M K N) K rfl rfl l)
    | ⟨1, _⟩ => exact plain_rhs_1 M K N _ _)

/-- A matrix product M×K by K×N into the zero accumulator is, at (p, q), the sum over l of lhs (p, l) * rhs (l, q). -/
theorem plain_matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ l : Fin K, lhs (ix2 p l) * rhs (ix2 l q) :=
  MatmulSum.matmul_zero_apply_single (DotDims.plain M K N) prec K rfl rfl lhs rhs (ix2 p q) (fun l => ix2 p l) (fun l => ix2 l q)
    (plain_lhsIdx M K N p q) (plain_rhsIdx M K N p q)

/-- The host's product M×K by K×N is, at (p, q), the sum over l of lhs (p, l) * rhs (l, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  MatmulSum.dotGeneral_apply_single (DotDims.plain M K N) prec sched K rfl rfl lhs rhs (ix2 p q) (fun l => ix2 p l) (fun l => ix2 l q)
    (plain_lhsIdx M K N p q) (plain_rhsIdx M K N p q)

end Idealize.ShloMosaic.PlainMatmul

end
-- ==== Proof.KernelBody.lean ====
/-
  The two layer bodies read at one entry of a block, on the extended reals.

  A block holds 5000 consecutive rows of the node arrays. Each body forms, for every row r of the block and every
  column c, the pre-activation
      s(r, c) = ( Σ_k mean(r, k) · Wl(k, c)  +  Σ_k x(r, k) · Wr(k, c) )  +  b(0, c),
  two 5000×128 by 128×128 matrix products into a zero accumulator added entrywise, plus the bias row repeated over
  the rows. The changes of number format before the products are the identity on extended reals, and a cast of an
  array to its own shape moves nothing. The body then takes the sum of squares of row r over its 128 columns, lays
  the 5000 sums out as a column, takes the square root, takes the larger of that and the clamp, repeats the column
  over the 128 columns and divides s(r, c) by it. The first body ends with the maximum of the quotient and zero.

  Entry (r, c) therefore depends on row r of the two node blocks only, and is the specification's row function
  `outRow` at column c. The specification groups the three summands as (A + b) + C where the body groups them as
  (A + C) + b; the two agree because addition of extended reals is commutative and associative.
-/
import proofs.«151983_j20100446946058_1_alg».proof.Proof.Gen.KernelIdeal.Skeleton
import proofs.«151983_j20100446946058_1_alg».proof.Proof.Spec
import proofs.«151983_j20100446946058_1_alg».proof.Proof.LibColumnLayout
import proofs.«151983_j20100446946058_1_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

namespace Cert.Sage

open Idealize.ShloMosaic Idealize.ShloMosaic.ValueIdx Cert.KernelIdeal
open scoped BigOperators

/-! ## The stages that are not entrywise, each read at one index -/

/-- The dimension numbers of the bodies' products are those of the plain product of a 5000×128 matrix by a 128×128
    one: the second axis of the left operand is contracted with the first axis of the right one, no batch axes. -/
theorem dot_eq_plain : dot_S5000x128_S128x128_S5000x128_1_0_0_1_n_n = DotDims.plain 5000 128 128 := rfl

/-- A product of a block by a weight matrix into the zero accumulator: entry (p, q) is the sum over k of
    a(p, k) · w(k, q). -/
theorem matmul_block_apply (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ l : Fin 128, a (ix2 p l) * w (ix2 l q) :=
  PlainMatmul.plain_matmul_zero_apply 5000 128 128 none a w p q

/-- The bias row, cast to its own shape and repeated over the 5000 rows: entry (p, q) is b(0, q). -/
theorem bias_block_apply (b : Vec Ideal S1x128 .f32) (h1 : S1x128.ShapeCasts S1x128) (h2 : S1x128.Broadcasts S5000x128)
    (p : Fin 5000) (q : Fin 128) :
    broadcastTo S5000x128 (shapeCast S1x128 b h1) h2 (ix2 p q) = b (ix2 (0 : Fin 1) q) :=
  (broadcastTo_1b_ab_apply (shapeCast S1x128 b h1) h2 p q).trans (congrFun (shapeCast_self b h1) (ix2 (0 : Fin 1) q))

/-- A change of number format after a cast of an array to its own shape leaves the array as it was. -/
theorem trunc_cast_eq {S : Shape} (x : Vec Ideal S .f32) (h : S.ShapeCasts S) (hb : FTy.bits .bf16 < FTy.bits .f32) :
    (truncf .bf16 (shapeCast S x h) hb : FVec Ideal S .bf16) = x :=
  funext fun i => congrFun (shapeCast_self x h) i

/-- A change of number format leaves an array as it was. -/
theorem trunc_eq {S : Shape} (x : Vec Ideal S .f32) (hb : FTy.bits .bf16 < FTy.bits .f32) :
    (truncf .bf16 x hb : FVec Ideal S .bf16) = x := rfl

/-- The divisor array of a block s: the sums of squares of the rows, as a column, under the square root, the larger of
    that and the clamp, repeated over the columns. Entry (p, q) is the divisor of row p. -/
theorem rowDivisor_apply (s : FVec Ideal S5000x128 .f32) (h : S5000x128.Reduces [1] S5000) (hφ : FKind.Formats .f32)
    (hacc : (0x00000000#32 : BitVec 32) = FKind.add.neutral .f32 hφ) (hc : S5000.ShapeCasts S5000x1)
    (hb : S5000x1.Broadcasts S5000x128) (p : Fin 5000) (q : Fin 128) :
    broadcastTo S5000x128
        (maximumf (sqrt (shapeCast S5000x1 (multiReduction .add [1] S5000 (mulf s s) 0x00000000#32 h hφ hacc) hc))
          (broadcast S5000x1 (Scalar.ofBits (F := Ideal) .f32 0x2B8CBCCC#32))) hb (ix2 p q)
      = rowNorm (fun c => s (ix2 p c)) := by
  refine (LibColumnLayout.broadcastTo_a1_ab_apply _ hb p q).trans ?_
  show max (Ideal.sqrt (shapeCast S5000x1 (multiReduction .add [1] S5000 (mulf s s) 0x00000000#32 h hφ hacc) hc (ix2 p (0 : Fin 1)))) eps
      = max (Ideal.sqrt (∑ c : Fin 128, s (ix2 p c) * s (ix2 p c))) eps
  refine congrArg (fun t => max (Ideal.sqrt t) eps) ?_
  refine (LibColumnLayout.shapeCast_a_a1_apply _ hc p (0 : Fin 1)).trans ?_
  exact LibColumnLayout.multiReduction_add_rows_apply (mulf s s) 0x00000000#32 h hφ hacc p

/-! ## The pre-activation block and its normalization -/

/-- The pre-activation block: the two products added, plus the bias row repeated over the rows. -/
def preVec (a1 a2 : FVec Ideal S5000x128 .bf16) (w1 w2 : FVec Ideal S128x128 .bf16) (b : Vec Ideal S1x128 .f32) :
    FVec Ideal S5000x128 .f32 :=
  addf
    (addf (matmul dot_S5000x128_S128x128_S5000x128_1_0_0_1_n_n none a1 w1 (constant S5000x128 .f32 0x00000000#32))
      (matmul dot_S5000x128_S128x128_S5000x128_1_0_0_1_n_n none a2 w2 (constant S5000x128 .f32 0x00000000#32)))
    (broadcastTo S5000x128 (shapeCast S1x128 b Gen.shapeCasts_S1x128_S1x128) Gen.broadcasts_S1x128_S5000x128)

/-- A block divided, row by row, by the larger of the row's Euclidean norm and the clamp. -/
def normalizeVec (s : FVec Ideal S5000x128 .f32) : FVec Ideal S5000x128 .f32 :=
  divf s
    (broadcastTo S5000x128
      (maximumf
        (sqrt (shapeCast S5000x1
          (multiReduction .add [1] S5000 (mulf s s) 0x00000000#32 Gen.reduces_S5000x128_S5000 (.inl rfl) rfl)
          Gen.shapeCasts_S5000_S5000x1))
        (broadcast S5000x1 (Scalar.ofBits .f32 0x2B8CBCCC#32)))
      Gen.broadcasts_S5000x1_S5000x128)

/-- Entry (p, q) of the pre-activation block is the row function with the summands grouped (A + C) + b. -/
theorem preVec_apply (a1 a2 : FVec Ideal S5000x128 .bf16) (w1 w2 : FVec Ideal S128x128 .bf16) (b : Vec Ideal S1x128 .f32)
    (p : Fin 5000) (q : Fin 128) :
    preVec a1 a2 w1 w2 b (ix2 p q)
      = preRowAlt (fun k => a1 (ix2 p k)) (fun k => a2 (ix2 p k)) w1 w2 (fun c => b (ix2 (0 : Fin 1) c)) q :=
  congrArg₂ (· + ·) (congrArg₂ (· + ·) (matmul_block_apply a1 w1 p q) (matmul_block_apply a2 w2 p q))
    (bias_block_apply b Gen.shapeCasts_S1x128_S1x128 Gen.broadcasts_S1x128_S5000x128 p q)

/-- Entry (p, q) of a normalized block: the entry divided by the divisor of row p. -/
theorem normalizeVec_apply (s : FVec Ideal S5000x128 .f32) (p : Fin 5000) (q : Fin 128) :
    normalizeVec s (ix2 p q) = Ideal.div (s (ix2 p q)) (rowNorm (fun c => s (ix2 p c))) :=
  congrArg (Ideal.div (s (ix2 p q)))
    (rowDivisor_apply s Gen.reduces_S5000x128_S5000 (.inl rfl) rfl Gen.shapeCasts_S5000_S5000x1
      Gen.broadcasts_S5000x1_S5000x128 p q)

/-! ## A layer body at one entry -/

/-- The normalized pre-activation block at (p, q) is the specification's row function without the rectifier. The
    operands of the products are named twice, as the body passes them and as the arrays they are equal to. -/
theorem layer_plain_apply {a1 a2 : FVec Ideal S5000x128 .bf16} {w1 w2 : FVec Ideal S128x128 .bf16}
    (b : Vec Ideal S1x128 .f32) {m x : S5000x128.Idx → EReal} {wl wr : W128}
    (h1 : a1 = m) (h2 : a2 = x) (h3 : w1 = wl) (h4 : w2 = wr) (p : Fin 5000) (q : Fin 128) :
    normalizeVec (preVec a1 a2 w1 w2 b) (ix2 p q)
      = outRow false (fun k => m (ix2 p k)) (fun k => x (ix2 p k)) wl wr (fun c => b (ix2 (0 : Fin 1) c)) q := by
  subst h1 h2 h3 h4
  have hrow : (fun c => preVec a1 a2 w1 w2 b (ix2 p c))
      = preRow (fun k => a1 (ix2 p k)) (fun k => a2 (ix2 p k)) w1 w2 (fun c => b (ix2 (0 : Fin 1) c)) :=
    (funext fun c => preVec_apply a1 a2 w1 w2 b p c).trans (preRowAlt_eq _ _ _ _ _)
  refine (normalizeVec_apply (preVec a1 a2 w1 w2 b) p q).trans ?_
  exact congrArg₂ Ideal.div (congrFun hrow q) (congrArg rowNorm hrow)

/-- The same with the rectifier: the larger of the quotient and zero. -/
theorem layer_relu_apply {a1 a2 : FVec Ideal S5000x128 .bf16} {w1 w2 : FVec Ideal S128x128 .bf16}
    (b : Vec Ideal S1x128 .f32) {m x : S5000x128.Idx → EReal} {wl wr : W128}
    (h1 : a1 = m) (h2 : a2 = x) (h3 : w1 = wl) (h4 : w2 = wr) (p : Fin 5000) (q : Fin 128) :
    maximumf (normalizeVec (preVec a1 a2 w1 w2 b)) (broadcast S5000x128 (Scalar.ofBits (F := Ideal) .f32 0x00000000#32)) (ix2 p q)
      = outRow true (fun k => m (ix2 p k)) (fun k => x (ix2 p k)) wl wr (fun c => b (ix2 (0 : Fin 1) c)) q :=
  congrArg (fun t => max t zero) (layer_plain_apply b h1 h2 h3 h4 p q)

/-! ## The two stored values -/

/-- The value the first body stores, at row p and column q of the block: the layer's row function with the rectifier,
    on row p of the mean block and of the feature block. -/
theorem pay0_apply (x0 x1 : Vec Ideal S5000x128 .f32) (x2 x3 : Vec Ideal S128x128 .f32) (x4 : Vec Ideal S1x128 .f32)
    (p : Fin 5000) (q : Fin 128) :
    Cert.KernelIdeal.Gen.k0_pay1 (F := Ideal) x0 x1 x2 x3 x4 (ix2 p q)
      = Cert.Sage.outRow true (fun k => x0 (ix2 p k)) (fun k => x1 (ix2 p k)) x2 x3 (fun c => x4 (ix2 (0 : Fin 1) c)) q := by
  have h := layer_relu_apply x4
    (trunc_cast_eq x0 Gen.shapeCasts_S5000x128_S5000x128 Gen.bitsLt_bf16_f32)
    (trunc_eq x1 Gen.bitsLt_bf16_f32)
    (trunc_cast_eq x2 Gen.shapeCasts_S128x128_S128x128 Gen.bitsLt_bf16_f32)
    (trunc_cast_eq x3 Gen.shapeCasts_S128x128_S128x128 Gen.bitsLt_bf16_f32) p q
  exact h

/-- The value the second body stores, at row p and column q of the block: the layer's row function without the
    rectifier. -/
theorem pay1_apply (x0 x1 : Vec Ideal S5000x128 .f32) (x2 x3 : Vec Ideal S128x128 .f32) (x4 : Vec Ideal S1x128 .f32)
    (p : Fin 5000) (q : Fin 128) :
    Cert.KernelIdeal.Gen.k1_pay1 (F := Ideal) x0 x1 x2 x3 x4 (ix2 p q)
      = Cert.Sage.outRow false (fun k => x0 (ix2 p k)) (fun k => x1 (ix2 p k)) x2 x3 (fun c => x4 (ix2 (0 : Fin 1) c)) q := by
  have h := layer_plain_apply x4
    (trunc_cast_eq x0 Gen.shapeCasts_S5000x128_S5000x128 Gen.bitsLt_bf16_f32)
    (trunc_cast_eq x1 Gen.shapeCasts_S5000x128_S5000x128 Gen.bitsLt_bf16_f32)
    (trunc_cast_eq x2 Gen.shapeCasts_S128x128_S128x128 Gen.bitsLt_bf16_f32)
    (trunc_cast_eq x3 Gen.shapeCasts_S128x128_S128x128 Gen.bitsLt_bf16_f32) p q
  exact h

end Cert.Sage

end
-- ==== Proof.KernelRegion.lean ====
/-
  From the blocks to the whole arrays: what each of the two layer launches leaves in its result array.

  A launch runs its body at ten points. At point t the body reads rows 5000·t … 5000·t + 4999 of the two node
  arrays (all 128 columns), the two weight matrices and the bias row whole, and the rows it stores are written
  back to rows 5000·t … 5000·t + 4999 of the result array. An entry (p, q) of a block sits at row 5000·t + p and
  column q of its array: a block's coordinate is its block index times the block's extent plus the coordinate
  inside the block, and the block index is (t, 0) for the row blocks and (0, 0) for the arrays read whole.

  The body's stored value at (p, q) is the layer's row function on row p of the two node blocks, that is on row
  5000·t + p of the two node arrays; and the row function on row r of the arrays is, by definition, entry (r, q)
  of the layer applied to the whole arrays. So what point t writes back is block t of the layer applied to the
  whole arrays. The ten blocks cover all 50000 rows (row r lies in the block of point r / 5000), so after the
  launch the result array is the layer applied to the arrays the launch found.
-/
import proofs.«151983_j20100446946058_1_alg».proof.Proof.Gen.KernelIdeal.Frame
import proofs.«151983_j20100446946058_1_alg».proof.Proof.KernelBody
import Idealize.ShloMosaic.Lib.Pipeline.Value
import Idealize.ShloMosaic.Lib.ValueIdx

set_option maxRecDepth 16384

noncomputable section

namespace Cert.Sage

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-- The zero offsets of a rectangle that is the whole buffer. -/
theorem zero_offsets : (![0, 0] : Fin 2 → Nat) = fun _ => 0 := funext fun a => by fin_cases a <;> rfl

/-- One entry of a layer, block against array. If row p of the two node blocks is row r of the two node arrays,
    and the weight and bias blocks are the weight and bias arrays, then the stored value at (p, q) is entry (r, q)
    of the layer applied to the arrays. Stated over variables of the literal block and array types. -/
theorem entry_of_rows (relu : Bool) (pay : FVec Ideal S5000x128 .f32)
    (x0 x1 : Vec Ideal S5000x128 .f32) (x2 x3 : Vec Ideal S128x128 .f32) (x4 : Vec Ideal S1x128 .f32)
    (A0 A1 : S50000x128.Idx → EReal) (W2 W3 : W128) (B : S1x128.Idx → EReal)
    (p : Fin 5000) (q : Fin 128) (r : Fin 50000)
    (hpay : pay (ix2 p q)
      = outRow relu (fun k => x0 (ix2 p k)) (fun k => x1 (ix2 p k)) x2 x3 (fun c => x4 (ix2 (0 : Fin 1) c)) q)
    (h0 : ∀ k : Fin 128, x0 (ix2 p k) = A0 (ix2 r k)) (h1 : ∀ k : Fin 128, x1 (ix2 p k) = A1 (ix2 r k))
    (h2 : x2 = W2) (h3 : x3 = W3) (h4 : x4 = B) :
    pay (ix2 p q) = layerOut relu A0 A1 W2 W3 B (ix2 r q) := by
  subst h2 h3 h4
  rw [hpay, layerOut_ix2, funext h0, funext h1]

/-! ## The first launch -/

/-- The block indices of the launch's six windows at point t, decided over the ten points: (t, 0) for the two node
    arrays and the result, (0, 0) for the weights and the bias. -/
theorem block_index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the first node block at point t is row 5000·t + p of the first node array. -/
theorem rows0_0 (c : Dev nD) (t : Fin cfg0.N) (p : Fin 5000) (k : Fin 128) (r : Fin 50000)
    (hr : r.val = 5000 * t.val + p.val) :
    (iblk0 (F := Ideal) V c 0 t : S5000x128.Idx → EReal) (ix2 p k) = (V c main_v24 : S50000x128.Idx → EReal) (ix2 r k) := by
  obtain ⟨e00, e01, -⟩ := block_index0 t
  show V c main_v24 (((cfg0.win 0).blk t).view.emb (ix2 p k)) = V c main_v24 (ix2 r k)
  refine congrArg (V c main_v24) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- Row p of the second node block at point t is row 5000·t + p of the second node array. -/
theorem rows0_1 (c : Dev nD) (t : Fin cfg0.N) (p : Fin 5000) (k : Fin 128) (r : Fin 50000)
    (hr : r.val = 5000 * t.val + p.val) :
    (iblk0 (F := Ideal) V c 1 t : S5000x128.Idx → EReal) (ix2 p k) = (V c main_arg0 : S50000x128.Idx → EReal) (ix2 r k) := by
  obtain ⟨-, -, e10, e11, -⟩ := block_index0 t
  show V c main_arg0 (((cfg0.win 1).blk t).view.emb (ix2 p k)) = V c main_arg0 (ix2 r k)
  refine congrArg (V c main_arg0) (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- The first weight block at every point is the whole first weight matrix. -/
theorem whole0_2 (c : Dev nD) (t : Fin cfg0.N) :
    (iblk0 (F := Ideal) V c 2 t : S128x128.Idx → EReal) = (V c main_v25 : S128x128.Idx → EReal) := by
  obtain ⟨-, -, -, -, e20, e21, -⟩ := block_index0 t
  funext y
  show V c main_v25 (((cfg0.win 2).blk t).view.emb y) = V c main_v25 y
  refine congrArg (V c main_v25) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The second weight block at every point is the whole second weight matrix. -/
theorem whole0_3 (c : Dev nD) (t : Fin cfg0.N) :
    (iblk0 (F := Ideal) V c 3 t : S128x128.Idx → EReal) = (V c main_v26 : S128x128.Idx → EReal) := by
  obtain ⟨-, -, -, -, -, -, e30, e31, -⟩ := block_index0 t
  funext y
  show V c main_v26 (((cfg0.win 3).blk t).view.emb y) = V c main_v26 y
  refine congrArg (V c main_v26) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The bias block at every point is the whole bias row. -/
theorem whole0_4 (c : Dev nD) (t : Fin cfg0.N) :
    (iblk0 (F := Ideal) V c 4 t : S1x128.Idx → EReal) = (V c main_v27 : S1x128.Idx → EReal) := by
  obtain ⟨-, -, -, -, -, -, -, -, e40, e41, -⟩ := block_index0 t
  funext y
  show V c main_v27 (((cfg0.win 4).blk t).view.emb y) = V c main_v27 y
  refine congrArg (V c main_v27) (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- What point t writes back is block t of the layer applied to the arrays the launch found. -/
theorem flushed0_eq (c : Dev nD) (t : Fin cfg0.N) :
    (dat0 (F := Ideal) V c).flushed 5 t
      = ((cfg0.win 5).blk t).view.read (Elt Ideal)
          (layerOut (n := 50000) true (V c main_v24) (V c main_arg0) (V c main_v25) (V c main_v26) (V c main_v27)) := by
  show (cfg0.win 5).cut (grid0.coords t) ((dat0 V c).after 5 t) = _
  rw [after0_5]
  unfold out0_5
  rw [View.canon_unit_zero zero_offsets]
  simp only [View.ld_unit_zero (S := S5000x128) zero_offsets, View.ld_unit_zero (S := S128x128) zero_offsets,
    View.ld_unit_zero (S := S1x128) zero_offsets]
  obtain ⟨-, -, -, -, -, -, -, -, -, -, e50, e51⟩ := block_index0 t
  have hN : cfg0.N = 10 := N_0
  have ht : t.val < 10 := hN ▸ t.isLt
  funext j
  obtain ⟨p, q, rfl⟩ : ∃ (p : Fin 5000) (q : Fin 128), j = ix2 p q := ⟨j 0, j 1, eq_ix2 j⟩
  have hr : 5000 * t.val + p.val < 50000 := by have := p.isLt; omega
  have hemb : ((cfg0.win 5).blk t).view.emb (ix2 p q) = (ix2 (⟨5000 * t.val + p.val, hr⟩ : Fin 50000) q : S50000x128.Idx) := by
    funext a; apply Fin.ext
    match a with
    | ⟨0, _⟩ => show win0_5.index t (0 : Fin 2) * 5000 + 1 * p.val = 5000 * t.val + p.val; omega
    | ⟨1, _⟩ => show win0_5.index t (1 : Fin 2) * 128 + 1 * q.val = q.val; omega
  show k0_pay1 (F := Ideal) (iblk0 V c 0 t) (iblk0 V c 1 t) (iblk0 V c 2 t) (iblk0 V c 3 t) (iblk0 V c 4 t) (ix2 p q)
      = layerOut (n := 50000) true (V c main_v24) (V c main_arg0) (V c main_v25) (V c main_v26) (V c main_v27)
          (((cfg0.win 5).blk t).view.emb (ix2 p q))
  rw [hemb]
  exact entry_of_rows true _ (iblk0 V c 0 t) (iblk0 V c 1 t) (iblk0 V c 2 t) (iblk0 V c 3 t) (iblk0 V c 4 t)
    (V c main_v24) (V c main_arg0) (V c main_v25) (V c main_v26) (V c main_v27) p q ⟨5000 * t.val + p.val, hr⟩
    (pay0_apply _ _ _ _ _ p q)
    (fun k => rows0_0 V c t p k _ rfl) (fun k => rows0_1 V c t p k _ rfl)
    (whole0_2 V c t) (whole0_3 V c t) (whole0_4 V c t)

/-- An index of the result array is in point t's block iff each coordinate is in the block's range on its axis. -/
theorem mem_block0 (t : Fin cfg0.N) (i : S50000x128.Idx) :
    i ∈ ((cfg0.win 5).blk t).view.set
      ↔ ∀ a : Fin 2, win0_5.index t a * S5000x128.size a ≤ (i a).val
          ∧ (i a).val < win0_5.index t a * S5000x128.size a + S5000x128.size a := by
  show i ∈ ((View.whole main_v28).slice (win0_5.rect t)).set ↔ _
  rw [View.set_slice_whole, Rect.mem_set_unit]
  exact Iff.rfl

/-- The ten blocks cover the result array: row r is in the block of point r / 5000. -/
theorem cover0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, -, -, -, -, -, -, e50, e51⟩ := block_index0 ⟨(i 0).val / 5000, ht⟩
  have e50' : win0_5.index ⟨(i 0).val / 5000, ht⟩ (0 : Fin 2) = (i 0).val / 5000 := e50
  refine ⟨⟨(i 0).val / 5000, ht⟩, flush0_5 _, ?_⟩
  rw [mem_block0]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    omega

/-- After the first launch its result array is the layer with the rectifier applied to the arrays the launch found. -/
theorem region0_array (c : Dev nD) :
    (dat0 (F := Ideal) V c).arrAt 5 cfg0.N = layerOut true (V c main_v24) (V c main_arg0) (V c main_v25) (V c main_v26) (V c main_v27) :=
  (dat0 (F := Ideal) V c).arrAt_eq_of_cover 5 _ (fun t _ => flushed0_eq V c t) cover0

/-! ## The second launch -/

/-- The block indices of the launch's six windows at point t, decided over the ten points: (t, 0) for the two node
    arrays and the result, (0, 0) for the weights and the bias. -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of the first node block at point t is row 5000·t + p of the first node array. -/
theorem rows1_0 (c : Dev nD) (t : Fin cfg1.N) (p : Fin 5000) (k : Fin 128) (r : Fin 50000)
    (hr : r.val = 5000 * t.val + p.val) :
    (iblk1 (F := Ideal) V c 0 t : S5000x128.Idx → EReal) (ix2 p k) = (V c main_v41 : S50000x128.Idx → EReal) (ix2 r k) := by
  obtain ⟨e00, e01, -⟩ := block_index1 t
  show V c main_v41 (((cfg1.win 0).blk t).view.emb (ix2 p k)) = V c main_v41 (ix2 r k)
  refine congrArg (V c main_v41) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- Row p of the second node block at point t is row 5000·t + p of the second node array. -/
theorem rows1_1 (c : Dev nD) (t : Fin cfg1.N) (p : Fin 5000) (k : Fin 128) (r : Fin 50000)
    (hr : r.val = 5000 * t.val + p.val) :
    (iblk1 (F := Ideal) V c 1 t : S5000x128.Idx → EReal) (ix2 p k) = (V c main_v28 : S50000x128.Idx → EReal) (ix2 r k) := by
  obtain ⟨-, -, e10, e11, -⟩ := block_index1 t
  show V c main_v28 (((cfg1.win 1).blk t).view.emb (ix2 p k)) = V c main_v28 (ix2 r k)
  refine congrArg (V c main_v28) (funext fun a => Fin.ext ?_)
  match a with
  | ⟨0, _⟩ => show win1_1.index t (0 : Fin 2) * 5000 + 1 * p.val = r.val; omega
  | ⟨1, _⟩ => show win1_1.index t (1 : Fin 2) * 128 + 1 * k.val = k.val; omega

/-- The first weight block at every point is the whole first weight matrix. -/
theorem whole1_2 (c : Dev nD) (t : Fin cfg1.N) :
    (iblk1 (F := Ideal) V c 2 t : S128x128.Idx → EReal) = (V c main_v42 : S128x128.Idx → EReal) := by
  obtain ⟨-, -, -, -, e20, e21, -⟩ := block_index1 t
  funext y
  show V c main_v42 (((cfg1.win 2).blk t).view.emb y) = V c main_v42 y
  refine congrArg (V c main_v42) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The second weight block at every point is the whole second weight matrix. -/
theorem whole1_3 (c : Dev nD) (t : Fin cfg1.N) :
    (iblk1 (F := Ideal) V c 3 t : S128x128.Idx → EReal) = (V c main_v43 : S128x128.Idx → EReal) := by
  obtain ⟨-, -, -, -, -, -, e30, e31, -⟩ := block_index1 t
  funext y
  show V c main_v43 (((cfg1.win 3).blk t).view.emb y) = V c main_v43 y
  refine congrArg (V c main_v43) (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The bias block at every point is the whole bias row. -/
theorem whole1_4 (c : Dev nD) (t : Fin cfg1.N) :
    (iblk1 (F := Ideal) V c 4 t : S1x128.Idx → EReal) = (V c main_v44 : S1x128.Idx → EReal) := by
  obtain ⟨-, -, -, -, -, -, -, -, e40, e41, -⟩ := block_index1 t
  funext y
  show V c main_v44 (((cfg1.win 4).blk t).view.emb y) = V c main_v44 y
  refine congrArg (V c main_v44) (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- What point t writes back is block t of the layer applied to the arrays the launch found. -/
theorem flushed1_eq (c : Dev nD) (t : Fin cfg1.N) :
    (dat1 (F := Ideal) V c).flushed 5 t
      = ((cfg1.win 5).blk t).view.read (Elt Ideal)
          (layerOut (n := 50000) false (V c main_v41) (V c main_v28) (V c main_v42) (V c main_v43) (V c main_v44)) := by
  show (cfg1.win 5).cut (grid1.coords t) ((dat1 V c).after 5 t) = _
  rw [after1_5]
  unfold out1_5
  rw [View.canon_unit_zero zero_offsets]
  simp only [View.ld_unit_zero (S := S5000x128) zero_offsets, View.ld_unit_zero (S := S128x128) zero_offsets,
    View.ld_unit_zero (S := S1x128) zero_offsets]
  obtain ⟨-, -, -, -, -, -, -, -, -, -, e50, e51⟩ := block_index1 t
  have hN : cfg1.N = 10 := N_1
  have ht : t.val < 10 := hN ▸ t.isLt
  funext j
  obtain ⟨p, q, rfl⟩ : ∃ (p : Fin 5000) (q : Fin 128), j = ix2 p q := ⟨j 0, j 1, eq_ix2 j⟩
  have hr : 5000 * t.val + p.val < 50000 := by have := p.isLt; omega
  have hemb : ((cfg1.win 5).blk t).view.emb (ix2 p q) = (ix2 (⟨5000 * t.val + p.val, hr⟩ : Fin 50000) q : S50000x128.Idx) := by
    funext a; apply Fin.ext
    match a with
    | ⟨0, _⟩ => show win1_5.index t (0 : Fin 2) * 5000 + 1 * p.val = 5000 * t.val + p.val; omega
    | ⟨1, _⟩ => show win1_5.index t (1 : Fin 2) * 128 + 1 * q.val = q.val; omega
  show k1_pay1 (F := Ideal) (iblk1 V c 0 t) (iblk1 V c 1 t) (iblk1 V c 2 t) (iblk1 V c 3 t) (iblk1 V c 4 t) (ix2 p q)
      = layerOut (n := 50000) false (V c main_v41) (V c main_v28) (V c main_v42) (V c main_v43) (V c main_v44)
          (((cfg1.win 5).blk t).view.emb (ix2 p q))
  rw [hemb]
  exact entry_of_rows false _ (iblk1 V c 0 t) (iblk1 V c 1 t) (iblk1 V c 2 t) (iblk1 V c 3 t) (iblk1 V c 4 t)
    (V c main_v41) (V c main_v28) (V c main_v42) (V c main_v43) (V c main_v44) p q ⟨5000 * t.val + p.val, hr⟩
    (pay1_apply _ _ _ _ _ p q)
    (fun k => rows1_0 V c t p k _ rfl) (fun k => rows1_1 V c t p k _ rfl)
    (whole1_2 V c t) (whole1_3 V c t) (whole1_4 V c t)

/-- An index of the result array is in point t's block iff each coordinate is in the block's range on its axis. -/
theorem mem_block1 (t : Fin cfg1.N) (i : S50000x128.Idx) :
    i ∈ ((cfg1.win 5).blk t).view.set
      ↔ ∀ a : Fin 2, win1_5.index t a * S5000x128.size a ≤ (i a).val
          ∧ (i a).val < win1_5.index t a * S5000x128.size a + S5000x128.size a := by
  show i ∈ ((View.whole main_v45).slice (win1_5.rect t)).set ↔ _
  rw [View.set_slice_whole, Rect.mem_set_unit]
  exact Iff.rfl

/-- The ten blocks cover the result array: row r is in the block of point r / 5000. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨-, -, -, -, -, -, -, -, -, -, e50, e51⟩ := block_index1 ⟨(i 0).val / 5000, ht⟩
  have e50' : win1_5.index ⟨(i 0).val / 5000, ht⟩ (0 : Fin 2) = (i 0).val / 5000 := e50
  refine ⟨⟨(i 0).val / 5000, ht⟩, flush1_5 _, ?_⟩
  rw [mem_block1]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    omega

/-- After the second launch its result array is the layer without the rectifier applied to the arrays the launch found. -/
theorem region1_array (c : Dev nD) :
    (dat1 (F := Ideal) V c).arrAt 5 cfg1.N = layerOut false (V c main_v41) (V c main_v28) (V c main_v42) (V c main_v43) (V c main_v44) :=
  (dat1 (F := Ideal) V c).arrAt_eq_of_cover 5 _ (fun t _ => flushed1_eq V c t) cover1

end Cert.Sage

end
-- ==== Proof.KernelHost.lean ====
/-
  The kernel program's result buffer is the network of the argument arrays.

  The buffer contents at the four segment boundaries of the program are a fold: the host operations before the first
  launch applied to the launch memory, the first launch's write-backs laid over that, the host operations between the
  launches applied to the result, the second launch's write-backs laid over that.  Read at the buffers the launches
  take as operands, the two stretches of host operations compute the mean of the in-neighbours' rows (the aggregate
  times the reciprocal clamped count), the transposed weights and the bias row; each launch leaves in its output array
  one layer of those operands; and the second stretch reads the first launch's output where the first read the input
  features.  Composed, the result buffer holds the two-layer network of the eight argument arrays.
-/
import proofs.«151983_j20100446946058_1_alg».proof.Proof.Gen.KernelIdeal.Frame
import proofs.«151983_j20100446946058_1_alg».proof.Proof.Shared
import proofs.«151983_j20100446946058_1_alg».proof.Proof.KernelRegion
import Idealize.ShloMosaic.Lib.StableHlo.Run

set_option maxRecDepth 16384

noncomputable section

namespace Cert.Sage

open Idealize.ShloMosaic Idealize.ShloMosaic.TcCoe Idealize.SL.Sem Idealize.ShloMosaic.StableHlo
open Cert.KernelIdeal Cert.KernelIdeal.Gen

/-! ## The host operations before the first launch, from any contents `W` -/

section Host0
variable (W : Valuation τ sig (Elt Ideal))

/-- The first launch's mean operand: the aggregate of the input features times the reciprocal clamped in-degree. -/
theorem host0_mean : StableHlo.after (hostOps0 (F := Ideal)) W (Proc.devRef .tc main_v24)
    = meanMul (W (Proc.devRef .tc main_arg0)) (src (W (Proc.devRef .tc main_arg1))) (dst (W (Proc.devRef .tc main_arg1)))
        (recip (dst (W (Proc.devRef .tc main_arg1)))) := by
  after_results_simp
  rfl
/-- The input features are not written. -/
theorem host0_x : StableHlo.after (hostOps0 (F := Ideal)) W (Proc.devRef .tc main_arg0) = W (Proc.devRef .tc main_arg0) := by
  after_results_simp
theorem host0_wl : StableHlo.after (hostOps0 (F := Ideal)) W (Proc.devRef .tc main_v25) = tr (W (Proc.devRef .tc main_arg2)) := by
  after_results_simp
  rfl
theorem host0_wr : StableHlo.after (hostOps0 (F := Ideal)) W (Proc.devRef .tc main_v26) = tr (W (Proc.devRef .tc main_arg4)) := by
  after_results_simp
  rfl
theorem host0_b : StableHlo.after (hostOps0 (F := Ideal)) W (Proc.devRef .tc main_v27) = biasRow (W (Proc.devRef .tc main_arg3)) := by
  after_results_simp
  rfl
/-- The edges' sources, destinations and reciprocal clamped in-degrees, which the second stretch reads again. -/
theorem host0_src : StableHlo.after (hostOps0 (F := Ideal)) W (Proc.devRef .tc main_v1) = src (W (Proc.devRef .tc main_arg1)) := by
  after_results_simp
  rfl
theorem host0_dst : StableHlo.after (hostOps0 (F := Ideal)) W (Proc.devRef .tc main_v3) = dst (W (Proc.devRef .tc main_arg1)) := by
  after_results_simp
  rfl
theorem host0_recip : StableHlo.after (hostOps0 (F := Ideal)) W (Proc.devRef .tc main_v11) = recip (dst (W (Proc.devRef .tc main_arg1))) := by
  after_results_simp
  rfl
/-- The second layer's weights and bias are not written. -/
theorem host0_arg5 : StableHlo.after (hostOps0 (F := Ideal)) W (Proc.devRef .tc main_arg5) = W (Proc.devRef .tc main_arg5) := by
  after_results_simp
theorem host0_arg6 : StableHlo.after (hostOps0 (F := Ideal)) W (Proc.devRef .tc main_arg6) = W (Proc.devRef .tc main_arg6) := by
  after_results_simp
theorem host0_arg7 : StableHlo.after (hostOps0 (F := Ideal)) W (Proc.devRef .tc main_arg7) = W (Proc.devRef .tc main_arg7) := by
  after_results_simp

end Host0

/-! ## The host operations between the launches, from any contents `W` -/

section Host1
variable (W : Valuation τ sig (Elt Ideal))

/-- The second launch's mean operand: the aggregate of the first launch's output times the reciprocal computed before. -/
theorem host1_mean : StableHlo.after (hostOps1 (F := Ideal)) W (Proc.devRef .tc main_v41)
    = meanMul (W (Proc.devRef .tc main_v28)) (W (Proc.devRef .tc main_v1)) (W (Proc.devRef .tc main_v3)) (W (Proc.devRef .tc main_v11)) := by
  after_results_simp
  rfl
/-- The first launch's output is not written. -/
theorem host1_h : StableHlo.after (hostOps1 (F := Ideal)) W (Proc.devRef .tc main_v28) = W (Proc.devRef .tc main_v28) := by
  after_results_simp
theorem host1_wl : StableHlo.after (hostOps1 (F := Ideal)) W (Proc.devRef .tc main_v42) = tr (W (Proc.devRef .tc main_arg5)) := by
  after_results_simp
  rfl
theorem host1_wr : StableHlo.after (hostOps1 (F := Ideal)) W (Proc.devRef .tc main_v43) = tr (W (Proc.devRef .tc main_arg7)) := by
  after_results_simp
  rfl
theorem host1_b : StableHlo.after (hostOps1 (F := Ideal)) W (Proc.devRef .tc main_v44) = biasRow (W (Proc.devRef .tc main_arg6)) := by
  after_results_simp
  rfl

end Host1

/-! ## The fold over the four segments -/

section Fold
variable (m : (ℓ : Loc nD τ sig) → Buf (Elt Ideal) ℓ) (ρ : Dev nD → PrngReg) (c : Dev nD)

/-- At launch a buffer holds what the launch memory gives it. -/
theorem launch_contents (b : Ref sig .tc) : W0 m ρ c (Proc.devRef .tc b) = m ((c : Thread nD τ).loc b) := rfl

/-- After the first launch its output array holds the rectified first layer of the argument arrays. -/
theorem first_output : W2 m ρ c (Proc.devRef .tc main_v28)
    = layer true (m ((c : Thread nD τ).loc main_arg0)) (m ((c : Thread nD τ).loc main_arg1)) (m ((c : Thread nD τ).loc main_arg2)) (m ((c : Thread nD τ).loc main_arg3)) (m ((c : Thread nD τ).loc main_arg4)) := by
  have e : W2 m ρ c (Proc.devRef .tc main_v28) = (dat0 (V1 m ρ) c).arrAt 5 cfg0.N := W2_arr m ρ c 5
  rw [e, region0_array (V1 m ρ) c]
  have e0 : V1 m ρ c main_v24 = _ := host0_mean (W0 m ρ c)
  have e1 : V1 m ρ c main_arg0 = _ := host0_x (W0 m ρ c)
  have e2 : V1 m ρ c main_v25 = _ := host0_wl (W0 m ρ c)
  have e3 : V1 m ρ c main_v26 = _ := host0_wr (W0 m ρ c)
  have e4 : V1 m ρ c main_v27 = _ := host0_b (W0 m ρ c)
  rw [e0, e1, e2, e3, e4]
  rfl

/-- After the second launch the result array holds the network of the argument arrays: the second stretch of host
    operations reads the first launch's output, and the sources, destinations and reciprocal in-degrees the first
    stretch left, none of which the first launch wrote. -/
theorem result_eq : W4 m ρ c (Proc.devRef .tc main_v45)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have e : W4 m ρ c (Proc.devRef .tc main_v45) = (dat1 (V3 m ρ) c).arrAt 5 cfg1.N := W4_arr m ρ c 5
  rw [e, region1_array (V3 m ρ) c]
  have e0 : V3 m ρ c main_v41 = _ := host1_mean (W2 m ρ c)
  have e1 : V3 m ρ c main_v28 = _ := host1_h (W2 m ρ c)
  have e2 : V3 m ρ c main_v42 = _ := host1_wl (W2 m ρ c)
  have e3 : V3 m ρ c main_v43 = _ := host1_wr (W2 m ρ c)
  have e4 : V3 m ρ c main_v44 = _ := host1_b (W2 m ρ c)
  rw [e0, e1, e2, e3, e4, first_output m ρ c]
  have f1 : W2 m ρ c (Proc.devRef .tc main_v1) = _ := (W2_of_ne m ρ c main_v1 (by decide)).trans (host0_src (W0 m ρ c))
  have f3 : W2 m ρ c (Proc.devRef .tc main_v3) = _ := (W2_of_ne m ρ c main_v3 (by decide)).trans (host0_dst (W0 m ρ c))
  have f11 : W2 m ρ c (Proc.devRef .tc main_v11) = _ := (W2_of_ne m ρ c main_v11 (by decide)).trans (host0_recip (W0 m ρ c))
  have a5 : W2 m ρ c (Proc.devRef .tc main_arg5) = _ := (W2_of_ne m ρ c main_arg5 (by decide)).trans (host0_arg5 (W0 m ρ c))
  have a6 : W2 m ρ c (Proc.devRef .tc main_arg6) = _ := (W2_of_ne m ρ c main_arg6 (by decide)).trans (host0_arg6 (W0 m ρ c))
  have a7 : W2 m ρ c (Proc.devRef .tc main_arg7) = _ := (W2_of_ne m ρ c main_arg7 (by decide)).trans (host0_arg7 (W0 m ρ c))
  rw [f1, f3, f11, a5, a6, a7]
  rfl

end Fold

end Cert.Sage

end
-- ==== Proof.LibColumnBroadcast.lean ====
/-
  A vector laid along a column and repeated over the columns.

  `broadcast_in_dim` applied twice, [n] -> [n, 1] (the vector becomes a column) and [n, 1] -> [n, c] (the column is
  repeated c times): entry (k, q) of the result is entry k of the vector, whatever the column q.  This is how
  `v[:, None] * M` scales the rows of a matrix M by a vector v.
-/
import Idealize.ShloMosaic.Lib.Pipeline.Value
import Idealize.ShloMosaic.Lib.ValueIdx

namespace Cert.Lib

open Idealize.ShloMosaic Idealize.ShloMosaic.ValueIdx

/-- Entry (k, q) of a length-n vector broadcast to a column [n, 1] and then to [n, c] is the vector's entry k.
    Holds for every n and c (for n = 1 the only index is 0 on both sides). -/
theorem broadcastInDim_column_apply {α : Type} {n c : ℕ} (v : (⟨1, ![n]⟩ : Shape).Idx → α)
    (h1 : (⟨1, ![n]⟩ : Shape).BroadcastsInDim ⟨2, ![n, 1]⟩ (![0] : Fin 1 → Fin 2))
    (h2 : (⟨2, ![n, 1]⟩ : Shape).BroadcastsInDim ⟨2, ![n, c]⟩ (![0, 1] : Fin 2 → Fin 2))
    (k : Fin n) (q : Fin c) :
    broadcastInDim ⟨2, ![n, c]⟩ ![0, 1] h2 (broadcastInDim ⟨2, ![n, 1]⟩ ![0] h1 v) (ix2 k q) = v (ix1 k) := by
  refine (broadcastInDim_apply _ h2 _ (ix2 k q) (ix2 k (0 : Fin 1)) fun a => ?_).trans
    (broadcastInDim_apply _ h1 v (ix2 k (0 : Fin 1)) (ix1 k) fun a => ?_)
  · match a with
    | ⟨0, _⟩ =>
      show k.val = if n = 1 then 0 else k.val
      split
      · have := k.isLt; omega
      · rfl
    | ⟨1, _⟩ =>
      show (0 : ℕ) = if (1 : ℕ) = 1 then 0 else q.val
      rw [if_pos rfl]
  · match a with
    | ⟨0, _⟩ =>
      show k.val = if n = 1 then 0 else k.val
      split
      · have := k.isLt; omega
      · rfl

end Cert.Lib
-- ==== Proof.RefSide.lean ====
/-
  The reference program's result is the two-layer network of the specification.

  The reference computes a layer in four movements.  (1) It sums, for every node, the feature rows of the node's
  in-neighbours (a row gather at the edges' sources followed by a scatter-add at the edges' destinations) and counts the
  node's in-edges (a scatter-add of ones).  (2) It DIVIDES the sums by the count clamped below by 1, the count spread
  along the 128 columns.  (3) It forms  (mean · Wlᵀ + b) + x · Wrᵀ  with two matrix products and the bias repeated over
  the rows.  (4) It divides every row by the larger of its Euclidean norm and a small positive clamp; after the first
  layer it takes the maximum with 0.

  Movement (1) is the same pair of whole-array operations the network's definition carries, so it is never opened:
  the two sides are the same term.  Movement (2) differs from the definition, which MULTIPLIES by the reciprocal
  1 / max(count, 1); the two agree entry by entry because the clamped count is at least 1, hence not zero.  Movements
  (3) and (4) are read at an entry (r, c): a matrix product is the sum over the contracted position of the products of
  the two entries, the repeated bias is the bias at c, the row sum of squares is the sum over the columns of the row's
  squared entries, and the column of norms repeated over the columns is the norm of row r.  What results is, literally,
  the specification's row function of row r of the mean and of the input.
-/
import proofs.«151983_j20100446946058_1_alg».proof.Proof.Gen.ReferenceIdeal.Read
import proofs.«151983_j20100446946058_1_alg».proof.Proof.Shared
import proofs.«151983_j20100446946058_1_alg».proof.Proof.LibColumnLayout
import proofs.«151983_j20100446946058_1_alg».proof.Proof.LibColumnBroadcast
import proofs.«151983_j20100446946058_1_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

namespace Cert.Sage

open Idealize.ShloMosaic Idealize.ShloMosaic.ValueIdx
open Cert.ReferenceIdeal Cert.ReferenceIdeal.Gen Cert.ReferenceIdeal.Read
open scoped BigOperators

/-! ## Reading at an index -/

/-- Two functions on the indices of a two-axis array agree when they agree at every (r, c). -/
theorem funext_ix2 {n0 n1 : Nat} {α : Type} {f g : (⟨2, ![n0, n1]⟩ : Shape).Idx → α}
    (h : ∀ (r : Fin n0) (c : Fin n1), f (ix2 r c) = g (ix2 r c)) : f = g :=
  funext fun i => (congrArg f (eq_ix2 i)).trans ((h (i 0) (i 1)).trans (congrArg g (eq_ix2 i)).symm)

/-- The host's quotient of two arrays reads, at an index, the quotient of the two entries. -/
theorem hostDivf_apply {s : Shape} (x y : FVec Ideal s .f32) (i : s.Idx) :
    Host.divf (F := Ideal) x y i = Ideal.div (x i) (y i) := rfl

/-- The host's square root of an array reads, at an index, the square root of the entry. -/
theorem hostSqrt_apply {s : Shape} (x : FVec Ideal s .f32) (i : s.Idx) :
    Host.sqrt (F := Ideal) x i = Ideal.sqrt (x i) := rfl

/-- A single number repeated over a whole array reads that number at every index. -/
theorem splat_apply {t : Shape} (h : (⟨0, ![]⟩ : Shape).BroadcastsInDim t (![] : Fin 0 → Fin t.rank)) (w : BitVec 32)
    (i : t.Idx) : broadcastInDim t ![] h (constant (F := Ideal) ⟨0, ![]⟩ .f32 w) i = Ideal.ofBits .f32 w :=
  broadcastInDim_apply _ h _ i (fun a => a.elim0) (fun a => a.elim0)

/-- An [a, 1] column repeated along a second axis of extent b reads, at (p, c), the column's entry p. -/
theorem broadcastInDim_a1_ab_apply {α : Type} {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-node factor spread along the columns reads, at (r, c), the factor of node r. -/
theorem spread_apply (v : FArr S50000) (r : Fin 50000) (c : Fin 128) : spread v (ix2 r c) = v (ix1 r) :=
  Cert.Lib.broadcastInDim_column_apply v _ _ r c

/-- The bias laid as a 1×128 row reads, at (0, c), the bias at c. -/
theorem biasRow_apply (b : FArr S128) (c : Fin 128) : biasRow b (ix2 (0 : Fin 1) c) = b (ix1 c) :=
  shapeCast_apply b _ (ix2 (0 : Fin 1) c) (ix1 c) (by
    rw [Shape.rowMajor_val_two, Shape.rowMajor_val_one]
    show c.val = 0 * 128 + c.val
    rw [Nat.zero_mul, Nat.zero_add])

/-- The bias laid along the columns of a one-row array and repeated over the 50000 rows reads, at (r, c), the bias at c. -/
theorem biasRows_apply (b : FArr S128) (r : Fin 50000) (c : Fin 128) :
    broadcastInDim S50000x128 ![0, 1] bcast_S1x128_S50000x128_0_1 (broadcastInDim S1x128 ![1] bcast_S128_S1x128_1 b) (ix2 r c)
      = b (ix1 c) := by
  refine (broadcastInDim_apply _ bcast_S1x128_S50000x128_0_1 _ (ix2 r c) (ix2 (0 : Fin 1) c) fun a => ?_).trans
    (broadcastInDim_apply _ bcast_S128_S1x128_1 b (ix2 (0 : Fin 1) c) (ix1 c) fun a => ?_)
  · match a with
    | ⟨0, _⟩ =>
      show (0 : ℕ) = if (1 : ℕ) = 1 then 0 else r.val
      rw [if_pos rfl]
    | ⟨1, _⟩ =>
      show c.val = if (128 : ℕ) = 1 then 0 else c.val
      rw [if_neg (by decide)]
  · match a with
    | ⟨0, _⟩ =>
      show c.val = if (128 : ℕ) = 1 then 0 else c.val
      rw [if_neg (by decide)]

/-- The reference's matrix product of a 50000×128 array with a 128×128 matrix is, at (r, c), the sum over l of the
    left entry (r, l) times the right entry (l, c). -/
theorem refDot_apply (x : FArr S50000x128) (w : FArr S128x128) (r : Fin 50000) (c : Fin 128) :
    Host.dotGeneral (F := Ideal) dot_S50000x128_S128x128_S50000x128_1_0_0_1_n_n none x w (ix2 r c)
      = ∑ l : Fin 128, x (ix2 r l) * w (ix2 l c) :=
  Idealize.ShloMosaic.PlainMatmul.plain_dotGeneral_apply 50000 128 128 none .single x w r c

/-! ## The mean: dividing by the clamped count is multiplying by its reciprocal -/

/-- Dividing an array row-wise by max(count, 1) equals multiplying it row-wise by 1 / max(count, 1): the divisor is at
    least 1, so it is not zero. -/
theorem div_spread_eq_mul_spread_recip (A : FArr S50000x128) (cnt ones : FArr S50000) (hones : ∀ i, ones i = one) :
    Host.divf (F := Ideal) A (spread (maximumf (F := Ideal) cnt ones))
      = mulf (F := Ideal) A (spread (Host.divf (F := Ideal) ones (maximumf (F := Ideal) cnt ones))) := by
  refine funext_ix2 fun r c => ?_
  show Ideal.div (A (ix2 r c)) (spread (maximumf (F := Ideal) cnt ones) (ix2 r c))
    = A (ix2 r c) * spread (Host.divf (F := Ideal) ones (maximumf (F := Ideal) cnt ones)) (ix2 r c)
  rw [spread_apply, spread_apply]
  show Ideal.div (A (ix2 r c)) (max (cnt (ix1 r)) (ones (ix1 r)))
    = A (ix2 r c) * Ideal.div (ones (ix1 r)) (max (cnt (ix1 r)) (ones (ix1 r)))
  rw [hones]
  exact (mul_recip_eq_div _ _).symm

/-- The mean taken by division is the mean taken by multiplication with the reciprocal. -/
theorem meanDiv_eq (h : FArr S50000x128) (s d : IArr S640000) : meanDiv h s d = meanMul h s d (recip d) := by
  unfold meanDiv meanMul recip degree
  exact div_spread_eq_mul_spread_recip _ _ _ (fun i => splat_apply _ _ i)

/-! ## The dense part of a layer, as the reference lays it out -/

/-- The pre-activation in the reference's grouping:  (mean · wlT + bias rows) + h · wrT. -/
def refPre (mean h : FArr S50000x128) (wlT wrT : FArr S128x128) (b : FArr S128) : FArr S50000x128 :=
  addf (F := Ideal)
    (addf (F := Ideal) (Host.dotGeneral (F := Ideal) dot_S50000x128_S128x128_S50000x128_1_0_0_1_n_n none mean wlT)
      (broadcastInDim S50000x128 ![0, 1] bcast_S1x128_S50000x128_0_1 (broadcastInDim S1x128 ![1] bcast_S128_S1x128_1 b)))
    (Host.dotGeneral (F := Ideal) dot_S50000x128_S128x128_S50000x128_1_0_0_1_n_n none h wrT)

/-- The sum of the squares of every row of an array. -/
def refSumSq (out : FArr S50000x128) : FArr S50000 :=
  Host.reduceAdd (F := Ideal) (mulf (F := Ideal) out out) (constant (F := Ideal) S_ .f32 0x00000000#32)
    reducesTo_S50000x128_S50000_d1 h_S_

/-- The divisor of every row, as a column: the larger of the row's Euclidean norm and the clamp. -/
def refNorm (out : FArr S50000x128) : FArr S50000x1 :=
  maximumf (F := Ideal)
    (Host.sqrt (F := Ideal) (broadcastInDim S50000x1 ![0] bcast_S50000_S50000x1_0 (refSumSq out)))
    (broadcastInDim S50000x1 ![] bcast_S_S50000x1 (constant (F := Ideal) S_ .f32 0x2B8CBCCC#32))

/-- Every row of an array divided by its divisor. -/
def refNormalize (out : FArr S50000x128) : FArr S50000x128 :=
  Host.divf (F := Ideal) out (broadcastInDim S50000x128 ![0, 1] bcast_S50000x1_S50000x128_0_1 (refNorm out))

/-- The array of zeros the rectifier compares with. -/
def refZeros : FArr S50000x128 :=
  broadcastInDim S50000x128 ![] bcast_S_S50000x128 (constant (F := Ideal) S_ .f32 0x00000000#32)

/-- Entry (r, c) of the reference's pre-activation is the specification's pre-activation of row r at column c. -/
theorem refPre_apply (mean h : FArr S50000x128) (wlT wrT : FArr S128x128) (b : FArr S128) (r : Fin 50000) (c : Fin 128) :
    refPre mean h wlT wrT b (ix2 r c)
      = preRow (fun k => mean (ix2 r k)) (fun k => h (ix2 r k)) wlT wrT (fun c => biasRow b (ix2 (0 : Fin 1) c)) c := by
  show (Host.dotGeneral (F := Ideal) dot_S50000x128_S128x128_S50000x128_1_0_0_1_n_n none mean wlT (ix2 r c)
      + broadcastInDim S50000x128 ![0, 1] bcast_S1x128_S50000x128_0_1 (broadcastInDim S1x128 ![1] bcast_S128_S1x128_1 b) (ix2 r c))
      + Host.dotGeneral (F := Ideal) dot_S50000x128_S128x128_S50000x128_1_0_0_1_n_n none h wrT (ix2 r c)
    = ((∑ k : Fin 128, mean (ix2 r k) * wlT (ix2 k c)) + biasRow b (ix2 (0 : Fin 1) c)) + ∑ k : Fin 128, h (ix2 r k) * wrT (ix2 k c)
  rw [refDot_apply, refDot_apply, biasRows_apply, biasRow_apply]

/-- Row r of the reference's pre-activation is the specification's pre-activation row. -/
theorem refPre_row (mean h : FArr S50000x128) (wlT wrT : FArr S128x128) (b : FArr S128) (r : Fin 50000) :
    (fun k => refPre mean h wlT wrT b (ix2 r k))
      = preRow (fun k => mean (ix2 r k)) (fun k => h (ix2 r k)) wlT wrT (fun c => biasRow b (ix2 (0 : Fin 1) c)) :=
  funext fun k => refPre_apply mean h wlT wrT b r k

/-- The sum of squares of row r is the sum over the columns of the row's squared entries (the initial value is 0). -/
theorem refSumSq_apply (out : FArr S50000x128) (r : Fin 50000) :
    refSumSq out (ix1 r) = ∑ d : Fin 128, out (ix2 r d) * out (ix2 r d) := by
  unfold refSumSq
  simp only [Host.reduceAdd, Ideal.hostReduceAdd_def]
  refine (Cert.LibColumnLayout.hostReduceAdd_rows_apply reducesTo_S50000x128_S50000_d1 (by decide) _ _ r).trans ?_
  show Ideal.ofBits .f32 0x00000000#32 + (∑ d : Fin 128, out (ix2 r d) * out (ix2 r d)) = _
  rw [Ideal.ofBits_zero_f32, zero_add]

/-- The divisor of row r, whichever the unit coordinate, is the specification's divisor of that row. -/
theorem refNorm_apply (out : FArr S50000x128) (r : Fin 50000) (u : Fin 1) :
    refNorm out (ix2 r u) = rowNorm fun k => out (ix2 r k) := by
  unfold refNorm rowNorm
  rw [maximumf_apply, hostSqrt_apply, Cert.LibColumnLayout.broadcastInDim_a_a1_apply, splat_apply, refSumSq_apply]
  rfl

/-- Entry (r, c) of the normalized array is the entry divided by the divisor of row r. -/
theorem refNormalize_apply (out : FArr S50000x128) (r : Fin 50000) (c : Fin 128) :
    refNormalize out (ix2 r c) = Ideal.div (out (ix2 r c)) (rowNorm fun k => out (ix2 r k)) := by
  unfold refNormalize
  rw [hostDivf_apply, broadcastInDim_a1_ab_apply, refNorm_apply]

/-- The reference's dense part without the rectifier is the specification's layer. -/
theorem refLayer_plain (mean h : FArr S50000x128) (wlT wrT : FArr S128x128) (b : FArr S128) :
    refNormalize (refPre mean h wlT wrT b) = layerOut false mean h wlT wrT (biasRow b) := by
  refine funext_ix2 fun r c => ?_
  rw [refNormalize_apply, layerOut_ix2, refPre_row, refPre_apply]
  rfl

/-- The reference's dense part followed by the maximum with 0 is the specification's rectified layer. -/
theorem refLayer_relu (mean h : FArr S50000x128) (wlT wrT : FArr S128x128) (b : FArr S128) :
    maximumf (F := Ideal) (refNormalize (refPre mean h wlT wrT b)) refZeros = layerOut true mean h wlT wrT (biasRow b) := by
  refine funext_ix2 fun r c => ?_
  show max (refNormalize (refPre mean h wlT wrT b) (ix2 r c))
      (broadcastInDim S50000x128 ![] bcast_S_S50000x128 (constant (F := Ideal) S_ .f32 0x00000000#32) (ix2 r c)) = _
  rw [splat_apply, refNormalize_apply, layerOut_ix2, refPre_row, refPre_apply]
  rfl

/-! ## The reference's stages are these functions of the earlier stages (the two sides are the same terms) -/

section Stages
variable (x0 : FArr S50000x128) (x1 : IArr S2x640000) (x2 : FArr S128x128) (x3 : FArr S128) (x4 x5 : FArr S128x128)
  (x6 : FArr S128) (x7 : FArr S128x128)

/-- The first layer's mean, as the reference takes it: the neighbour sums divided by the clamped counts. -/
theorem ref_v22 : val_main_v22 (F := Ideal) x0 x1 = meanDiv x0 (src x1) (dst x1) := rfl

/-- The first layer's pre-activation. -/
theorem ref_v30 : val_main_v30 (F := Ideal) x0 x1 x2 x3 x4 = refPre (val_main_v22 (F := Ideal) x0 x1) x0 (tr x2) (tr x4) x3 := rfl

/-- The first layer's normalized rows. -/
theorem ref_v38 : val_main_v38 (F := Ideal) x0 x1 x2 x3 x4 = refNormalize (val_main_v30 (F := Ideal) x0 x1 x2 x3 x4) := rfl

/-- The first layer's output: the normalized rows rectified. -/
theorem ref_v39 : val_main_v39 (F := Ideal) x0 x1 x2 x3 x4 = maximumf (F := Ideal) (val_main_v38 (F := Ideal) x0 x1 x2 x3 x4) refZeros := rfl

/-- The second layer's mean: the first layer's output aggregated over the same edges and divided by the same counts. -/
theorem ref_v58 : val_main_v58 (F := Ideal) x0 x1 x2 x3 x4
    = meanDiv (val_main_v39 (F := Ideal) x0 x1 x2 x3 x4) (src x1) (dst x1) := rfl

/-- The second layer's pre-activation. -/
theorem ref_v66 : val_main_v66 (F := Ideal) x0 x1 x2 x3 x4 x5 x6 x7
    = refPre (val_main_v58 (F := Ideal) x0 x1 x2 x3 x4) (val_main_v39 (F := Ideal) x0 x1 x2 x3 x4) (tr x5) (tr x7) x6 := rfl

/-- The second layer's normalized rows: the program's result. -/
theorem ref_v74 : val_main_v74 (F := Ideal) x0 x1 x2 x3 x4 x5 x6 x7
    = refNormalize (val_main_v66 (F := Ideal) x0 x1 x2 x3 x4 x5 x6 x7) := rfl

/-- The reference's first layer is the network's rectified first layer. -/
theorem ref_layer1 : val_main_v39 (F := Ideal) x0 x1 x2 x3 x4 = layer true x0 x1 x2 x3 x4 := by
  rw [ref_v39, ref_v38, ref_v30, ref_v22, meanDiv_eq]
  exact refLayer_relu _ _ _ _ _

end Stages

/-- The reference program's result is the network of the eight argument arrays. -/
theorem ref_value (x0 : FArr Cert.KernelIdeal.S50000x128) (x1 : IArr Cert.KernelIdeal.S2x640000)
    (x2 : FArr Cert.KernelIdeal.S128x128) (x3 : FArr Cert.KernelIdeal.S128) (x4 x5 : FArr Cert.KernelIdeal.S128x128)
    (x6 : FArr Cert.KernelIdeal.S128) (x7 : FArr Cert.KernelIdeal.S128x128) :
    Cert.ReferenceIdeal.Read.val_main_v74 (F := Ideal) x0 x1 x2 x3 x4 x5 x6 x7 = Cert.Sage.net x0 x1 x2 x3 x4 x5 x6 x7 := by
  rw [ref_v74, ref_v66, ref_v58, meanDiv_eq, ref_layer1]
  exact refLayer_plain _ _ _ _ _

end Cert.Sage

end
-- ==== Proof.lean ====
/-
  Two graph-convolution layers with mean aggregation: the kernel program against its reference, on the extended reals.

  Both programs gather the feature rows at the edges' sources and add them up at the edges' destinations, count the
  in-edges of every node, and turn the sums into means.  The kernel program multiplies the sums by the reciprocal
  1 / max(count, 1); the reference divides them by max(count, 1): the divisor is never zero, and division by a non-zero
  extended real is multiplication by its inverse.  The dense part of a layer — mean · Wlᵀ + x · Wrᵀ + b, each row divided
  by the larger of its Euclidean norm and a small clamp, the first layer then rectified — runs in the kernel program as
  a launch over ten blocks of 5000 rows, each block computing its rows from the same rows of the two operands, and in
  the reference as whole-array host operations; the three summands are grouped differently, which addition on the
  extended reals does not see.  The gather and the scatter-add are the same operations of the same operands on both
  sides and are never opened.  No step needs the inputs to be finite.

  The frames of the two kernel programs are the generated ones; the reference's frame is its generated run with the
  result dropped; the idealization rewrote nothing.  For the value claim the kernel program's run is re-posted with
  its result buffer named (KernelRun), the buffer is read back through the four segments of the program to the
  network of the argument arrays (KernelHost, over KernelRegion and KernelBody), and the reference's generated result
  term is shown to be the same network (RefSide).
-/
import proofs.«151983_j20100446946058_1_alg».proof.Defs
import proofs.«151983_j20100446946058_1_alg».proof.Proof.Gen.Kernel
import proofs.«151983_j20100446946058_1_alg».proof.Proof.Gen.Kernel.Skeleton
import proofs.«151983_j20100446946058_1_alg».proof.Proof.Gen.Kernel.Launch
import proofs.«151983_j20100446946058_1_alg».proof.Proof.Gen.Kernel.Points
import proofs.«151983_j20100446946058_1_alg».proof.Proof.Gen.Kernel.Frame
import proofs.«151983_j20100446946058_1_alg».proof.Proof.Gen.KernelIdeal
import proofs.«151983_j20100446946058_1_alg».proof.Proof.Gen.KernelIdeal.Skeleton
import proofs.«151983_j20100446946058_1_alg».proof.Proof.Gen.KernelIdeal.Launch
import proofs.«151983_j20100446946058_1_alg».proof.Proof.Gen.KernelIdeal.Points
import proofs.«151983_j20100446946058_1_alg».proof.Proof.Gen.KernelIdeal.Frame
import proofs.«151983_j20100446946058_1_alg».proof.Proof.Gen.ReferenceIdeal
import proofs.«151983_j20100446946058_1_alg».proof.Proof.Gen.Pre_finite_inputs
import proofs.«151983_j20100446946058_1_alg».proof.Proof.Gen.ReferenceIdeal.Run
import proofs.«151983_j20100446946058_1_alg».proof.Proof.Gen.ReferenceIdeal.Read
import proofs.«151983_j20100446946058_1_alg».proof.Proof.KernelRun
import proofs.«151983_j20100446946058_1_alg».proof.Proof.KernelHost
import proofs.«151983_j20100446946058_1_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel launch: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the network of the argument arrays in their result buffer. -/
theorem algebraic : Cert.algebraic_KernelIdeal_ReferenceIdeal := by
  intro m ρ m' ρ' _ hagree
  refine ⟨fun c => Cert.Sage.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.Sage.result_eq m ρ c), (h c).2⟩)
      (Cert.Sage.KRun.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v74_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact Cert.Sage.ref_value _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
